-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3x600000 : Shape := ⟨2, ![3, 600000]⟩
abbrev S128x128 : Shape := ⟨2, ![128, 128]⟩
abbrev S128 : Shape := ⟨1, ![128]⟩
abbrev S3x128x128 : Shape := ⟨3, ![3, 128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x600000 : S_.BroadcastsInDim S3x600000 (![] : Fin 0 → Fin S3x600000.rank)
  reducesTo_S3x600000_S_d0_1 : S3x600000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_

variable [Facts]

def fn_part1 {F : FTy → Type} [FloatOps F] (main_arg6 : FVec F S3x128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128x128 .f32 := Host.absf main_arg6
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  main_v23

def fn {F : FTy → Type} [FloatOps F] (main_arg0 : FVec F S100000x128 .f32) (main_arg1 : IVec S3x600000 32) (main_arg2 : IVec S3x600000 32) (main_arg3 : FVec F S3x600000 .f32) (main_arg4 : FVec F S128x128 .f32) (main_arg5 : FVec F S128 .f32) (main_arg6 : FVec F S3x128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x600000 .f32 := Host.absf main_arg3
  let main_cst_0 : FVec F S_ .f32 := constant S_ .f32 0x7F800000#32
  let main_v5 : FVec F S3x600000 .f32 := broadcastInDim S3x600000 ![] bcast_S_S3x600000 main_cst_0
  let main_v6 : IVec S3x600000 1 := cmpf .olt main_v4 main_v5
  let main_c_1 : IVec S_ 1 := constantI S_ 1 1#1
  let main_v7 : IVec S_ 1 := (fun x v => Host.reduce IntOp.andi x v reducesTo_S3x600000_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_v13 main_v16
-- ==== Kernel.lean ====
abbrev S100000x128 : Shape := ⟨2, ![100000, 128]⟩
abbrev S3x600000 : Shape := ⟨2, ![3, 600000]⟩
abbrev S128x128 : Shape := ⟨2, ![128, 128]⟩
abbrev S128 : Shape := ⟨1, ![128]⟩
abbrev S3x128x128 : Shape := ⟨3, ![3, 128, 128]⟩
abbrev S1x600000 : Shape := ⟨2, ![1, 600000]⟩
abbrev S600000 : Shape := ⟨1, ![600000]⟩
abbrev S600000x1 : Shape := ⟨2, ![600000, 1]⟩
abbrev S_ : Shape := ⟨0, ![]⟩
abbrev S600000x128 : Shape := ⟨2, ![600000, 128]⟩
abbrev S1x100000x128 : Shape := ⟨3, ![1, 100000, 128]⟩
abbrev S3x100000x128 : Shape := ⟨3, ![3, 100000, 128]⟩
abbrev S1x128 : Shape := ⟨2, ![1, 128]⟩
abbrev S5000x128 : Shape := ⟨2, ![5000, 128]⟩
abbrev S3x5000x128 : Shape := ⟨3, ![3, 5000, 128]⟩
abbrev S1x5000x128 : Shape := ⟨3, ![1, 5000, 128]⟩
abbrev S1x128x128 : Shape := ⟨3, ![1, 128, 128]⟩

abbrev nBuf : Space → Nat
  | .hbm => 81
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S3x600000, .i32⟩
  | .hbm, ⟨2, _⟩ => ⟨S3x600000, .i32⟩
  | .hbm, ⟨3, _⟩ => ⟨S3x600000, .f32⟩
  | .hbm, ⟨4, _⟩ => ⟨S128x128, .f32⟩
  | .hbm, ⟨5, _⟩ => ⟨S128, .f32⟩
  | .hbm, ⟨6, _⟩ => ⟨S3x128x128, .f32⟩
  | .hbm, ⟨7, _⟩ => ⟨S1x600000, .f32⟩
  | .hbm, ⟨8, _⟩ => ⟨S600000, .f32⟩
  | .hbm, ⟨9, _⟩ => ⟨S600000x1, .f32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S600000x128, .f32⟩
  | .hbm, ⟨22, _⟩ => ⟨S600000x128, .f32⟩
  | .hbm, ⟨23, _⟩ => ⟨S1x600000, .i32⟩
  | .hbm, ⟨24, _⟩ => ⟨S600000, .i32⟩
  | .hbm, ⟨25, _⟩ => ⟨S_, .f32⟩
  | .hbm, ⟨26, _⟩ => ⟨S100000x128, .f32⟩
  | .hbm, ⟨27, _⟩ => ⟨S600000x1, .i32⟩
  | .hbm, ⟨28, _⟩ => ⟨S100000x128, .f32⟩
  | .hbm, ⟨29, _⟩ => ⟨S1x600000, .f32⟩
  | .hbm, ⟨30, _⟩ => ⟨S600000, .f32⟩
  | .hbm, ⟨31, _⟩ => ⟨S600000x1, .f32⟩
  | .hbm, ⟨32, _⟩ => ⟨S1x600000, .i32⟩
  | .hbm, ⟨33, _⟩ => ⟨S600000, .i32⟩
  | .hbm, ⟨34, _⟩ => ⟨S_, .i32⟩
  | .hbm, ⟨35, _⟩ => ⟨S600000, .i32⟩
  | .hbm, ⟨36, _⟩ => ⟨S600000, .i1⟩
  | .hbm, ⟨37, _⟩ => ⟨S_, .i32⟩
  | .hbm, ⟨38, _⟩ => ⟨S600000, .i32⟩
  | .hbm, ⟨39, _⟩ => ⟨S600000, .i32⟩
  | .hbm, ⟨40, _⟩ => ⟨S600000, .i32⟩
  | .hbm, ⟨41, _⟩ => ⟨S600000x1, .i32⟩
  | .hbm, ⟨42, _⟩ => ⟨S600000x128, .f32⟩
  | .hbm, ⟨43, _⟩ => ⟨S600000x128, .f32⟩
  | .hbm, ⟨44, _⟩ => ⟨S600000x128, .f32⟩
  | .hbm, ⟨45, _⟩ => ⟨S1x600000, .i32⟩
  | .hbm, ⟨46, _⟩ => ⟨S600000, .i32⟩
  | .hbm, ⟨47, _⟩ => ⟨S_, .f32⟩
  | .hbm, ⟨48, _⟩ => ⟨S100000x128, .f32⟩
  | .hbm, ⟨49, _⟩ => ⟨S600000x1, .i32⟩
  | .hbm, ⟨50, _⟩ => ⟨S100000x128, .f32⟩
  | .hbm, ⟨51, _⟩ => ⟨S1x600000, .f32⟩
  | .hbm, ⟨52, _⟩ => ⟨S600000, .f32⟩
  | .hbm, ⟨53, _⟩ => ⟨S600000x1, .f32⟩
  | .hbm, ⟨54, _⟩ => ⟨S1x600000, .i32⟩
  | .hbm, ⟨55, _⟩ => ⟨S600000, .i32⟩
  | .hbm, ⟨56, _⟩ => ⟨S_, .i32⟩
  | .hbm, ⟨57, _⟩ => ⟨S600000, .i32⟩
  | .hbm, ⟨58, _⟩ => ⟨S600000, .i1⟩
  | .hbm, ⟨59, _⟩ => ⟨S_, .i32⟩
  | .hbm, ⟨60, _⟩ => ⟨S600000, .i32⟩
  | .hbm, ⟨61, _⟩ => ⟨S600000, .i32⟩
  | .hbm, ⟨62, _⟩ => ⟨S600000, .i32⟩
  | .hbm, ⟨63, _⟩ => ⟨S600000x1, .i32⟩
  | .hbm, ⟨64, _⟩ => ⟨S600000x128, .f32⟩
  | .hbm, ⟨65, _⟩ => ⟨S600000x128, .f32⟩
  | .hbm, ⟨66, _⟩ => ⟨S600000x128, .f32⟩
  | .hbm, ⟨67, _⟩ => ⟨S1x600000, .i32⟩
  | .hbm, ⟨68, _⟩ => ⟨S600000, .i32⟩
  | .hbm, ⟨69, _⟩ => ⟨S_, .f32⟩
  | .hbm, ⟨70, _⟩ => ⟨S100000x128, .f32⟩
  | .hbm, ⟨71, _⟩ => ⟨S600000x1, .i32⟩
  | .hbm, ⟨72, _⟩ => ⟨S100000x128, .f32⟩
  | .hbm, ⟨73, _⟩ => ⟨S1x100000x128, .f32⟩
  | .hbm, ⟨74, _⟩ => ⟨S1x100000x128, .f32⟩
  | .hbm, ⟨75, _⟩ => ⟨S1x100000x128, .f32⟩
  | .hbm, ⟨76, _⟩ => ⟨S3x100000x128, .f32⟩
  | .hbm, ⟨77, _⟩ => ⟨S128x128, .f32⟩
  | .hbm, ⟨78, _⟩ => ⟨S3x128x128, .f32⟩
  | .hbm, ⟨79, _⟩ => ⟨S1x128, .f32⟩
  | .hbm, ⟨80, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S3x5000x128, .f32⟩
  | .local _ .vmem, ⟨3, _⟩ => ⟨S3x5000x128, .f32⟩
  | .local _ .vmem, ⟨4, _⟩ => ⟨S128x128, .f32⟩
  | .local _ .vmem, ⟨5, _⟩ => ⟨S1x128, .f32⟩
  | .local _ .vmem, ⟨6, _⟩ => ⟨S3x128x128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_1 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_4 : Ref sig .tc := ⟨.hbm, 56, rfl⟩
abbrev main_v43 : Ref sig .tc := ⟨.hbm, 57, rfl⟩
abbrev main_v44 : Ref sig .tc := ⟨.hbm, 58, rfl⟩
abbrev main_c_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S3x600000_S1x600000_0_0 : S3x600000.Slices ![0, 0] S1x600000
  shapeCasts_S1x600000_S600000 : S1x600000.ShapeCasts S600000
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  slices_S3x600000_S1x600000_1_0 : S3x600000.Slices ![1, 0] S1x600000
  slices_S3x600000_S1x600000_2_0 : S3x600000.Slices ![2, 0] S1x600000
  bcast_S100000x128_S1x100000x128_1_2 : S100000x128.BroadcastsInDim S1x100000x128 (![1, 2] : Fin 2 → Fin S1x100000x128.rank)
  concatenates_S1x100000x128_S1x100000x128_S1x100000x128_S3x100000x128_d0 : Shape.Concatenates [S1x100000x128, S1x100000x128, S1x100000x128] S3x100000x128 0
  transposes_S128x128_S128x128_1_0 : S128x128.Transposes [1, 0] S128x128
  transposes_S3x128x128_S3x128x128_0_2_1 : S3x128x128.Transposes [0, 2, 1] S3x128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S3x5000x128_S1x5000x128_0_0_0 : ∀ a, (![0, 0, 0] : Fin 3 → Nat) a + S1x5000x128.size a ≤ S3x5000x128.size a
  h_S1x5000x128 : 0 < S1x5000x128.numel
  shapeCasts_S1x5000x128_S5000x128 : S1x5000x128.ShapeCasts S5000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x5000x128_S1x5000x128_1_0_0 : ∀ a, (![1, 0, 0] : Fin 3 → Nat) a + S1x5000x128.size a ≤ S3x5000x128.size a
  inb_S3x128x128_S1x128x128_1_0_0 : ∀ a, (![1, 0, 0] : Fin 3 → Nat) a + S1x128x128.size a ≤ S3x128x128.size a
  inb_S3x5000x128_S1x5000x128_2_0_0 : ∀ a, (![2, 0, 0] : Fin 3 → Nat) a + S1x5000x128.size a ≤ S3x5000x128.size a
  inb_S3x128x128_S1x128x128_2_0_0 : ∀ a, (![2, 0, 0] : Fin 3 → Nat) a + S1x128x128.size a ≤ S3x128x128.size a
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x5000x128.size a ≤ S3x100000x128.size a
  hwx0_1 : ∀ i : grid0.Coords, EltTy.bits .f32 = 32 ∨ (Rect.block (s := S3x100000x128) S3x5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128x128.size a ≤ S3x128x128.size a
  hwx0_4 : ∀ i : grid0.Coords, EltTy.bits .f32 = 32 ∨ (Rect.block (s := S3x128x128) S3x128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v60) S3x5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v61) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v63) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v62) S3x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v64) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S3x600000 : Shape := ⟨2, ![3, 600000]⟩
abbrev S128x128 : Shape := ⟨2, ![128, 128]⟩
abbrev S128 : Shape := ⟨1, ![128]⟩
abbrev S3x128x128 : Shape := ⟨3, ![3, 128, 128]⟩
abbrev S1x128 : Shape := ⟨2, ![1, 128]⟩
abbrev S1x600000 : Shape := ⟨2, ![1, 600000]⟩
abbrev S600000 : Shape := ⟨1, ![600000]⟩
abbrev S600000x1 : Shape := ⟨2, ![600000, 1]⟩
abbrev S_ : Shape := ⟨0, ![]⟩
abbrev S600000x128 : Shape := ⟨2, ![600000, 128]⟩
abbrev S1x128x128 : Shape := ⟨3, ![1, 128, 128]⟩

abbrev nBuf : Space → Nat
  | .hbm => 93
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S3x600000, .i32⟩
  | .hbm, ⟨2, _⟩ => ⟨S3x600000, .i32⟩
  | .hbm, ⟨3, _⟩ => ⟨S3x600000, .f32⟩
  | .hbm, ⟨4, _⟩ => ⟨S128x128, .f32⟩
  | .hbm, ⟨5, _⟩ => ⟨S128, .f32⟩
  | .hbm, ⟨6, _⟩ => ⟨S3x128x128, .f32⟩
  | .hbm, ⟨7, _⟩ => ⟨S128x128, .f32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S1x600000, .f32⟩
  | .hbm, ⟨13, _⟩ => ⟨S600000, .f32⟩
  | .hbm, ⟨14, _⟩ => ⟨S600000x1, .f32⟩
  | .hbm, ⟨15, _⟩ => ⟨S1x600000, .i32⟩
  | .hbm, ⟨16, _⟩ => ⟨S600000, .i32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x128, .f32⟩
  | .hbm, ⟨26, _⟩ => ⟨S600000x128, .f32⟩
  | .hbm, ⟨27, _⟩ => ⟨S600000x128, .f32⟩
  | .hbm, ⟨28, _⟩ => ⟨S1x600000, .i32⟩
  | .hbm, ⟨29, _⟩ => ⟨S600000, .i32⟩
  | .hbm, ⟨30, _⟩ => ⟨S_, .f32⟩
  | .hbm, ⟨31, _⟩ => ⟨S100000x128, .f32⟩
  | .hbm, ⟨32, _⟩ => ⟨S600000x1, .i32⟩
  | .hbm, ⟨33, _⟩ => ⟨S100000x128, .f32⟩
  | .hbm, ⟨34, _⟩ => ⟨S1x128x128, .f32⟩
  | .hbm, ⟨35, _⟩ => ⟨S128x128, .f32⟩
  | .hbm, ⟨36, _⟩ => ⟨S128x128, .f32⟩
  | .hbm, ⟨37, _⟩ => ⟨S100000x128, .f32⟩
  | .hbm, ⟨38, _⟩ => ⟨S100000x128, .f32⟩
  | .hbm, ⟨39, _⟩ => ⟨S1x600000, .f32⟩
  | .hbm, ⟨40, _⟩ => ⟨S600000, .f32⟩
  | .hbm, ⟨41, _⟩ => ⟨S600000x1, .f32⟩
  | .hbm, ⟨42, _⟩ => ⟨S1x600000, .i32⟩
  | .hbm, ⟨43, _⟩ => ⟨S600000, .i32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .f32⟩
  | .hbm, ⟨53, _⟩ => ⟨S600000x128, .f32⟩
  | .hbm, ⟨54, _⟩ => ⟨S600000x128, .f32⟩
  | .hbm, ⟨55, _⟩ => ⟨S1x600000, .i32⟩
  | .hbm, ⟨56, _⟩ => ⟨S600000, .i32⟩
  | .hbm, ⟨57, _⟩ => ⟨S_, .f32⟩
  | .hbm, ⟨58, _⟩ => ⟨S100000x128, .f32⟩
  | .hbm, ⟨59, _⟩ => ⟨S600000x1, .i32⟩
  | .hbm, ⟨60, _⟩ => ⟨S100000x128, .f32⟩
  | .hbm, ⟨61, _⟩ => ⟨S1x128x128, .f32⟩
  | .hbm, ⟨62, _⟩ => ⟨S128x128, .f32⟩
  | .hbm, ⟨63, _⟩ => ⟨S128x128, .f32⟩
  | .hbm, ⟨64, _⟩ => ⟨S100000x128, .f32⟩
  | .hbm, ⟨65, _⟩ => ⟨S100000x128, .f32⟩
  | .hbm, ⟨66, _⟩ => ⟨S1x600000, .f32⟩
  | .hbm, ⟨67, _⟩ => ⟨S600000, .f32⟩
  | .hbm, ⟨68, _⟩ => ⟨S600000x1, .f32⟩
  | .hbm, ⟨69, _⟩ => ⟨S1x600000, .i32⟩
  | .hbm, ⟨70, _⟩ => ⟨S600000, .i32⟩
  | .hbm, ⟨71, _⟩ => ⟨S_, .i32⟩
  | .hbm, ⟨72, _⟩ => ⟨S600000, .i32⟩
  | .hbm, ⟨73, _⟩ => ⟨S600000, .i1⟩
  | .hbm, ⟨74, _⟩ => ⟨S_, .i32⟩
  | .hbm, ⟨75, _⟩ => ⟨S600000, .i32⟩
  | .hbm, ⟨76, _⟩ => ⟨S600000, .i32⟩
  | .hbm, ⟨77, _⟩ => ⟨S600000, .i32⟩
  | .hbm, ⟨78, _⟩ => ⟨S600000x1, .i32⟩
  | .hbm, ⟨79, _⟩ => ⟨S600000x128, .f32⟩
  | .hbm, ⟨80, _⟩ => ⟨S600000x128, .f32⟩
  | .hbm, ⟨81, _⟩ => ⟨S600000x128, .f32⟩
  | .hbm, ⟨82, _⟩ => ⟨S1x600000, .i32⟩
  | .hbm, ⟨83, _⟩ => ⟨S600000, .i32⟩
  | .hbm, ⟨84, _⟩ => ⟨S_, .f32⟩
  | .hbm, ⟨85, _⟩ => ⟨S100000x128, .f32⟩
  | .hbm, ⟨86, _⟩ => ⟨S600000x1, .i32⟩
  | .hbm, ⟨87, _⟩ => ⟨S100000x128, .f32⟩
  | .hbm, ⟨88, _⟩ => ⟨S1x128x128, .f32⟩
  | .hbm, ⟨89, _⟩ => ⟨S128x128, .f32⟩
  | .hbm, ⟨90, _⟩ => ⟨S128x128, .f32⟩
  | .hbm, ⟨91, _⟩ => ⟨S100000x128, .f32⟩
  | .hbm, ⟨92, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_1 : Ref sig .tc := ⟨.hbm, 44, rfl⟩
abbrev main_v34 : Ref sig .tc := ⟨.hbm, 45, rfl⟩
abbrev main_v35 : Ref sig .tc := ⟨.hbm, 46, rfl⟩
abbrev main_c_2 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_3 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_c_4 : Ref sig .tc := ⟨.hbm, 71, rfl⟩
abbrev main_v58 : Ref sig .tc := ⟨.hbm, 72, rfl⟩
abbrev main_v59 : Ref sig .tc := ⟨.hbm, 73, rfl⟩
abbrev main_c_5 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_6 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x600000_S1x600000_0_0 : S3x600000.Slices ![0, 0] S1x600000
  shapeCasts_S1x600000_S600000 : S1x600000.ShapeCasts S600000
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x600000_S1x600000_1_0 : S3x600000.Slices ![1, 0] S1x600000
  slices_S3x128x128_S1x128x128_1_0_0 : S3x128x128.Slices ![1, 0, 0] S1x128x128
  slices_S3x600000_S1x600000_2_0 : S3x600000.Slices ![2, 0] S1x600000
  slices_S3x128x128_S1x128x128_2_0_0 : S3x128x128.Slices ![2, 0, 0] S1x128x128
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.KernelHost.lean ====
/-
  The host side of the frame of `Kernel`: the program is seventy-three host operations — per relation a gather of rows
  of the node features, a scaling by the edge values and a scatter-add into a zero matrix, then the three
  aggregates stacked, the weights transposed and the bias made a row — followed by ONE tiled region.  Here: the
  contents of every TensorCore buffer when the region is entered (the fold of the host operations over the launch
  memory), that the program up to the region is those operations, that no host operation writes an argument, what
  block of its array each window holds at a grid point, that an input window's staging buffer holds that block at
  every point whether or not it was fetched there, and how the frame claim follows from a run whose post names every
  array of the region.
-/
import proofs.«118483_j63582695850894_1_alg».proof.Proof.Gen.Kernel.Launch
import proofs.«118483_j63582695850894_1_alg».proof.Proof.Gen.Kernel.Skeleton
import proofs.«118483_j63582695850894_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The program up to the region -/

/-- Core `c`'s TensorCore buffers when the region is entered: the launch memory after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (an unfetched
    window's block index has not moved), for any proof data over these arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (an unfetched
    window's block index has not moved), for any proof data over these arrays whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (an unfetched
    window's block index has not moved), for any proof data over these arrays whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (an unfetched
    window's block index has not moved), for any proof data over these arrays whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (an unfetched
    window's block index has not moved), for any proof data over these arrays whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run that names the region's arrays -/

/-- Of a run whose post has every array of the region at what the proof data computes and every other unscoped buffer
    as the region found it, the seven arguments end as launched: the node features are an input window's array (an input
    window's array is never written), the other six are staged by no window, and no host operation wrote any. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

end Cert.Kernel.Frm

end
-- ==== Proof.KernelBody.lean ====
/-
  The region of `Kernel`, point by point.  At a grid point the body reads a 5000-row tile of the node features, the
  same rows of the three stacked aggregates (three sub-rectangles of one 3 × 5000 × 128 buffer), the transposed self
  weight, the bias row and the three transposed relation weights (three sub-rectangles of one 3 × 128 × 128 buffer),
  and stores ONE 5000 × 128 tile: four matrix products into zero accumulators and the bias row, summed in order.
  The tile it stores is named as a function of the five input blocks; the body's triple is run symbolically; the
  proof data say that every input buffer is left at its block and the output buffer at that tile; the run of the
  whole program follows, and the frame claim from it.
-/
import proofs.«118483_j63582695850894_1_alg».proof.Proof.KernelHost

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes -/

/-- The whole 5000 × 128 tile (the features' buffer, and the output's). -/
abbrev rTile : Rect S5000x128 := Rect.unit (s := S5000x128) ![0, 0] S5000x128.size inb_S5000x128_S5000x128_0_0
/-- The whole 128 × 128 self weight. -/
abbrev rSelf : Rect S128x128 := Rect.unit (s := S128x128) ![0, 0] S128x128.size inb_S128x128_S128x128_0_0
/-- The whole bias row. -/
abbrev rBias : Rect S1x128 := Rect.unit (s := S1x128) ![0, 0] S1x128.size inb_S1x128_S1x128_0_0
/-- Relation 0, 1, 2's slab of the stacked aggregates' tile. -/
abbrev rAgg0 : Rect S3x5000x128 := Rect.unit (s := S3x5000x128) ![0, 0, 0] S1x5000x128.size inb_S3x5000x128_S1x5000x128_0_0_0
abbrev rAgg1 : Rect S3x5000x128 := Rect.unit (s := S3x5000x128) ![1, 0, 0] S1x5000x128.size inb_S3x5000x128_S1x5000x128_1_0_0
abbrev rAgg2 : Rect S3x5000x128 := Rect.unit (s := S3x5000x128) ![2, 0, 0] S1x5000x128.size inb_S3x5000x128_S1x5000x128_2_0_0
/-- Relation 0, 1, 2's slab of the stacked relation weights. -/
abbrev rRel0 : Rect S3x128x128 := Rect.unit (s := S3x128x128) ![0, 0, 0] S1x128x128.size inb_S3x128x128_S1x128x128_0_0_0
abbrev rRel1 : Rect S3x128x128 := Rect.unit (s := S3x128x128) ![1, 0, 0] S1x128x128.size inb_S3x128x128_S1x128x128_1_0_0
abbrev rRel2 : Rect S3x128x128 := Rect.unit (s := S3x128x128) ![2, 0, 0] S1x128x128.size inb_S3x128x128_S1x128x128_2_0_0

/-! ## What the body leaves in the output window's buffer -/

/-- The tile the body stores, from the five input blocks: the one store's payload over what the nine loads read. -/
def tileOf (x0 : Vec F S5000x128 .f32) (x1 : Vec F S3x5000x128 .f32) (x2 : Vec F S128x128 .f32) (x3 : Vec F S1x128 .f32)
    (x4 : Vec F S3x128x128 .f32) : Vec F S5000x128 .f32 :=
  k0_pay1 (View.ld x0 rTile) (View.ld x2 rSelf) (View.ld x3 rBias) (View.ld x1 rAgg0) (View.ld x4 rRel0) (View.ld x1 rAgg1)
    (View.ld x4 rRel1) (View.ld x1 rAgg2) (View.ld x4 rRel2)

/-- The output buffer after the body: its one store, which covers it. -/
def outTile (x0 : Vec F S5000x128 .f32) (x1 : Vec F S3x5000x128 .f32) (x2 : Vec F S128x128 .f32) (x3 : Vec F S1x128 .f32)
    (x4 : Vec F S3x128x128 .f32) : Vec F S5000x128 .f32 :=
  View.canon [⟨rTile, tileOf x0 x1 x2 x3 x4⟩]

/-- The one store is of the whole tile. -/
theorem coverTile (p0 : Vec F S5000x128 .f32) (y : S5000x128.Idx) :
    ∃ pc ∈ ([⟨rTile, p0⟩] : List (View.Piece (Elt F) S5000x128 .f32)), y ∈ pc.1.set :=
  View.cover_of_tiled [⟨rTile, p0⟩] S5000x128.size (by rfl) y

/-! ## The body's triple -/

set_option maxHeartbeats 4000000 in
/-- The body on whole staging buffers, the inputs' at read contents `x0 … x4` and the output's at anything, runs to
    a state holding the inputs' as they were and the output's at `outTile` of them. -/
theorem sound_kernel (c : Dev nD) (E : Set ℕ) (i : grid0.Coords)
    (arg1 : Memref sig .tc .vmem S5000x128 .f32) (harg1 : arg1.IsWhole) (arg2 : Memref sig .tc .vmem S3x5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S3x128x128 .f32) (harg5 : arg5.IsWhole) (arg6 : Memref sig .tc .vmem S5000x128 .f32) (harg6 : arg6.IsWhole)
    (x0 : Vec F S5000x128 .f32) (x1 : Vec F S3x5000x128 .f32) (x2 : Vec F S128x128 .f32) (x3 : Vec F S1x128 .f32)
    (x4 : Vec F S3x128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outTile x0 x1 x2 x3 x4)) -∗ K ⟨⟩))
      ⊢ wp frame (wpE (defs₀ (F := F)) Variants.none c none) E
          (cc0__combine_kernel i arg1 harg1 arg2 harg2 arg3 harg3 arg4 harg4 arg5 harg5 arg6 harg6) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverTile _)

/-! ## The proof data -/

/-- On core `c`: the arrays as the region finds them; after the body at point `t` each input's buffer at its block and
    the output's at `outTile` of the input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outTile (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = outTile (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d
theorem before_3 (c : Dev nD) (t : Fin cfg0.N) (d) : (dats m 0 c).before 3 t d = iblk m c 3 t :=
  before3_of m (dats m 0 c) (A_eq m c 3) (after_3 m c) t d
theorem before_4 (c : Dev nD) (t : Fin cfg0.N) (d) : (dats m 0 c).before 4 t d = iblk m c 4 t :=
  before4_of m (dats m 0 c) (A_eq m c 4) (after_4 m c) t d

/-! ## The body obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program from any memory with zero counters terminates, and every final state
    has every array of the region at what the proof data compute and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim of the program, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Frm

end
-- ==== Proof.KernelIdealHost.lean ====
/-
  The host side of the frame of `KernelIdeal`: the program is seventy-three host operations — per relation a gather of rows
  of the node features, a scaling by the edge values and a scatter-add into a zero matrix, then the three
  aggregates stacked, the weights transposed and the bias made a row — followed by ONE tiled region.  Here: the
  contents of every TensorCore buffer when the region is entered (the fold of the host operations over the launch
  memory), that the program up to the region is those operations, that no host operation writes an argument, what
  block of its array each window holds at a grid point, that an input window's staging buffer holds that block at
  every point whether or not it was fetched there, and how the frame claim follows from a run whose post names every
  array of the region.
-/
import proofs.«118483_j63582695850894_1_alg».proof.Proof.Gen.KernelIdeal.Launch
import proofs.«118483_j63582695850894_1_alg».proof.Proof.Gen.KernelIdeal.Skeleton
import proofs.«118483_j63582695850894_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The program up to the region -/

/-- Core `c`'s TensorCore buffers when the region is entered: the launch memory after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (an unfetched
    window's block index has not moved), for any proof data over these arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (an unfetched
    window's block index has not moved), for any proof data over these arrays whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (an unfetched
    window's block index has not moved), for any proof data over these arrays whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (an unfetched
    window's block index has not moved), for any proof data over these arrays whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (an unfetched
    window's block index has not moved), for any proof data over these arrays whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run that names the region's arrays -/

/-- Of a run whose post has every array of the region at what the proof data computes and every other unscoped buffer
    as the region found it, the seven arguments end as launched: the node features are an input window's array (an input
    window's array is never written), the other six are staged by no window, and no host operation wrote any. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

end Cert.KernelIdeal.Frm

end
-- ==== Proof.KernelIdealBody.lean ====
/-
  The region of `KernelIdeal`, point by point.  At a grid point the body reads a 5000-row tile of the node features, the
  same rows of the three stacked aggregates (three sub-rectangles of one 3 × 5000 × 128 buffer), the transposed self
  weight, the bias row and the three transposed relation weights (three sub-rectangles of one 3 × 128 × 128 buffer),
  and stores ONE 5000 × 128 tile: four matrix products into zero accumulators and the bias row, summed in order.
  The tile it stores is named as a function of the five input blocks; the body's triple is run symbolically; the
  proof data say that every input buffer is left at its block and the output buffer at that tile; the run of the
  whole program follows, and the frame claim from it.
-/
import proofs.«118483_j63582695850894_1_alg».proof.Proof.KernelIdealHost

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes -/

/-- The whole 5000 × 128 tile (the features' buffer, and the output's). -/
abbrev rTile : Rect S5000x128 := Rect.unit (s := S5000x128) ![0, 0] S5000x128.size inb_S5000x128_S5000x128_0_0
/-- The whole 128 × 128 self weight. -/
abbrev rSelf : Rect S128x128 := Rect.unit (s := S128x128) ![0, 0] S128x128.size inb_S128x128_S128x128_0_0
/-- The whole bias row. -/
abbrev rBias : Rect S1x128 := Rect.unit (s := S1x128) ![0, 0] S1x128.size inb_S1x128_S1x128_0_0
/-- Relation 0, 1, 2's slab of the stacked aggregates' tile. -/
abbrev rAgg0 : Rect S3x5000x128 := Rect.unit (s := S3x5000x128) ![0, 0, 0] S1x5000x128.size inb_S3x5000x128_S1x5000x128_0_0_0
abbrev rAgg1 : Rect S3x5000x128 := Rect.unit (s := S3x5000x128) ![1, 0, 0] S1x5000x128.size inb_S3x5000x128_S1x5000x128_1_0_0
abbrev rAgg2 : Rect S3x5000x128 := Rect.unit (s := S3x5000x128) ![2, 0, 0] S1x5000x128.size inb_S3x5000x128_S1x5000x128_2_0_0
/-- Relation 0, 1, 2's slab of the stacked relation weights. -/
abbrev rRel0 : Rect S3x128x128 := Rect.unit (s := S3x128x128) ![0, 0, 0] S1x128x128.size inb_S3x128x128_S1x128x128_0_0_0
abbrev rRel1 : Rect S3x128x128 := Rect.unit (s := S3x128x128) ![1, 0, 0] S1x128x128.size inb_S3x128x128_S1x128x128_1_0_0
abbrev rRel2 : Rect S3x128x128 := Rect.unit (s := S3x128x128) ![2, 0, 0] S1x128x128.size inb_S3x128x128_S1x128x128_2_0_0

/-! ## What the body leaves in the output window's buffer -/

/-- The tile the body stores, from the five input blocks: the one store's payload over what the nine loads read. -/
def tileOf (x0 : Vec F S5000x128 .f32) (x1 : Vec F S3x5000x128 .f32) (x2 : Vec F S128x128 .f32) (x3 : Vec F S1x128 .f32)
    (x4 : Vec F S3x128x128 .f32) : Vec F S5000x128 .f32 :=
  k0_pay1 (View.ld x0 rTile) (View.ld x2 rSelf) (View.ld x3 rBias) (View.ld x1 rAgg0) (View.ld x4 rRel0) (View.ld x1 rAgg1)
    (View.ld x4 rRel1) (View.ld x1 rAgg2) (View.ld x4 rRel2)

/-- The output buffer after the body: its one store, which covers it. -/
def outTile (x0 : Vec F S5000x128 .f32) (x1 : Vec F S3x5000x128 .f32) (x2 : Vec F S128x128 .f32) (x3 : Vec F S1x128 .f32)
    (x4 : Vec F S3x128x128 .f32) : Vec F S5000x128 .f32 :=
  View.canon [⟨rTile, tileOf x0 x1 x2 x3 x4⟩]

/-- The one store is of the whole tile. -/
theorem coverTile (p0 : Vec F S5000x128 .f32) (y : S5000x128.Idx) :
    ∃ pc ∈ ([⟨rTile, p0⟩] : List (View.Piece (Elt F) S5000x128 .f32)), y ∈ pc.1.set :=
  View.cover_of_tiled [⟨rTile, p0⟩] S5000x128.size (by rfl) y

/-! ## The body's triple -/

set_option maxHeartbeats 4000000 in
/-- The body on whole staging buffers, the inputs' at read contents `x0 … x4` and the output's at anything, runs to
    a state holding the inputs' as they were and the output's at `outTile` of them. -/
theorem sound_kernel (c : Dev nD) (E : Set ℕ) (i : grid0.Coords)
    (arg1 : Memref sig .tc .vmem S5000x128 .f32) (harg1 : arg1.IsWhole) (arg2 : Memref sig .tc .vmem S3x5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S3x128x128 .f32) (harg5 : arg5.IsWhole) (arg6 : Memref sig .tc .vmem S5000x128 .f32) (harg6 : arg6.IsWhole)
    (x0 : Vec F S5000x128 .f32) (x1 : Vec F S3x5000x128 .f32) (x2 : Vec F S128x128 .f32) (x3 : Vec F S1x128 .f32)
    (x4 : Vec F S3x128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outTile x0 x1 x2 x3 x4)) -∗ K ⟨⟩))
      ⊢ wp frame (wpE (defs₀ (F := F)) Variants.none c none) E
          (cc0__combine_kernel i arg1 harg1 arg2 harg2 arg3 harg3 arg4 harg4 arg5 harg5 arg6 harg6) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverTile _)

/-! ## The proof data -/

/-- On core `c`: the arrays as the region finds them; after the body at point `t` each input's buffer at its block and
    the output's at `outTile` of the input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outTile (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = outTile (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d
theorem before_3 (c : Dev nD) (t : Fin cfg0.N) (d) : (dats m 0 c).before 3 t d = iblk m c 3 t :=
  before3_of m (dats m 0 c) (A_eq m c 3) (after_3 m c) t d
theorem before_4 (c : Dev nD) (t : Fin cfg0.N) (d) : (dats m 0 c).before 4 t d = iblk m c 4 t :=
  before4_of m (dats m 0 c) (A_eq m c 4) (after_4 m c) t d

/-! ## The body obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program from any memory with zero counters terminates, and every final state
    has every array of the region at what the proof data compute and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim of the program, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Frm

end
-- ==== Proof.KernelIdealTile.lean ====
/-
  The tile the region stores at a grid point, read at an entry, on the extended reals.

  The body multiplies the features' tile by the transposed self weight, adds the bias row to every row, and adds, for
  each relation, the product of that relation's slab of the aggregates' tile with that relation's slab of the
  transposed weights.  Every product goes into a zero accumulator, so at the entry (p, q) it is the plain sum over the
  128 contraction indices; a slab of a three-axis buffer, cast to a matrix, reads the buffer at (relation, row, column);
  the bias row spread over the rows reads the row at q.
-/
import proofs.«118483_j63582695850894_1_alg».proof.Proof.KernelIdealBody
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Frm
open Idealize.ShloMosaic Idealize.ShloMosaic.TcCoe Idealize.ShloMosaic.ValueIdx Idealize.SL.Sem

local notation "DD" => dot_S5000x128_S128x128_S5000x128_1_0_0_1_n_n

/-! ## A 5000 × 128 by 128 × 128 product into a zero accumulator, at an entry -/

theorem lhs_row (i : S5000x128.Idx) (κ : (dot_S5000x128_S128x128_S5000x128_1_0_0_1_n_n).contr.Idx) :
    ((dot_S5000x128_S128x128_S5000x128_1_0_0_1_n_n).lhsIdx i κ 0).val = (i 0).val := by
  unfold DotDims.lhsIdx
  rw [dif_neg (show ¬(0 : Fin S5000x128.rank) ∈ (dot_S5000x128_S128x128_S5000x128_1_0_0_1_n_n).lhsBatch by decide),
    dif_pos (show (0 : Fin S5000x128.rank) ∈ (dot_S5000x128_S128x128_S5000x128_1_0_0_1_n_n).lhsNonContracting by decide)]
  rfl

theorem rhs_col (i : S5000x128.Idx) (κ : (dot_S5000x128_S128x128_S5000x128_1_0_0_1_n_n).contr.Idx) :
    ((dot_S5000x128_S128x128_S5000x128_1_0_0_1_n_n).rhsIdx i κ 1).val = (i 1).val := by
  unfold DotDims.rhsIdx
  rw [dif_neg (show ¬(1 : Fin S128x128.rank) ∈ (dot_S5000x128_S128x128_S5000x128_1_0_0_1_n_n).rhsBatch by decide),
    dif_pos (show (1 : Fin S128x128.rank) ∈ (dot_S5000x128_S128x128_S5000x128_1_0_0_1_n_n).rhsNonContracting by decide)]
  rfl

/-- The product at (p, q) is Σ_k a[p,k] · w[k,q]. -/
theorem mm_apply (a : FVec Ideal S5000x128 .f32) (w : FVec Ideal S128x128 .f32) (p : Fin 5000) (q : Fin 128) :
    matmul (F := Ideal) (φ₁ := .f32) (φ₂ := .f32) dot_S5000x128_S128x128_S5000x128_1_0_0_1_n_n none a w (constant S5000x128 .f32 0x00000000#32) (ix2 p q)
      = ∑ k : Fin 128, a (ix2 p k) * w (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : (dot_S5000x128_S128x128_S5000x128_1_0_0_1_n_n).lhsIdx (ix2 p q)
      ((contrEquiv1 dot_S5000x128_S128x128_S5000x128_1_0_0_1_n_n 128 rfl rfl).symm k) = ix2 p k :=
    funext fun ax => Fin.ext (by
      match ax with
      | ⟨0, _⟩ => exact lhs_row _ _
      | ⟨1, _⟩ => exact ((dot_S5000x128_S128x128_S5000x128_1_0_0_1_n_n).lhsIdx_val_of_single rfl _ _).trans hk)
  have er : (dot_S5000x128_S128x128_S5000x128_1_0_0_1_n_n).rhsIdx (ix2 p q)
      ((contrEquiv1 dot_S5000x128_S128x128_S5000x128_1_0_0_1_n_n 128 rfl rfl).symm k) = ix2 k q :=
    funext fun ax => Fin.ext (by
      match ax with
      | ⟨0, _⟩ => exact ((dot_S5000x128_S128x128_S5000x128_1_0_0_1_n_n).rhsIdx_val_of_single rfl _ _).trans hk
      | ⟨1, _⟩ => exact rhs_col _ _)
  rw [el, er]

/-! ## The loads -/

theorem zeros2 : (![0, 0] : Fin 2 → Nat) = fun _ => 0 := funext fun a => by fin_cases a <;> rfl

/-- A slab of the aggregates' tile at (0, p, k) is the buffer at (relation, p, k). -/
theorem ld_agg0 (x1 : Vec Ideal S3x5000x128 .f32) (p : Fin 5000) (k : Fin 128) :
    View.ld x1 rAgg0 (ix3 (0 : Fin 1) p k) = x1 (ix3 (0 : Fin 3) p k) :=
  congrArg x1 (funext fun ax => Fin.ext (by
    match ax with
    | ⟨0, _⟩ => rfl
    | ⟨1, _⟩ => show 0 + 1 * p.val = p.val; omega
    | ⟨2, _⟩ => show 0 + 1 * k.val = k.val; omega))
theorem ld_agg1 (x1 : Vec Ideal S3x5000x128 .f32) (p : Fin 5000) (k : Fin 128) :
    View.ld x1 rAgg1 (ix3 (0 : Fin 1) p k) = x1 (ix3 (1 : Fin 3) p k) :=
  congrArg x1 (funext fun ax => Fin.ext (by
    match ax with
    | ⟨0, _⟩ => rfl
    | ⟨1, _⟩ => show 0 + 1 * p.val = p.val; omega
    | ⟨2, _⟩ => show 0 + 1 * k.val = k.val; omega))
theorem ld_agg2 (x1 : Vec Ideal S3x5000x128 .f32) (p : Fin 5000) (k : Fin 128) :
    View.ld x1 rAgg2 (ix3 (0 : Fin 1) p k) = x1 (ix3 (2 : Fin 3) p k) :=
  congrArg x1 (funext fun ax => Fin.ext (by
    match ax with
    | ⟨0, _⟩ => rfl
    | ⟨1, _⟩ => show 0 + 1 * p.val = p.val; omega
    | ⟨2, _⟩ => show 0 + 1 * k.val = k.val; omega))

/-- A slab of the relation weights at (0, k, q) is the buffer at (relation, k, q). -/
theorem ld_rel0 (x4 : Vec Ideal S3x128x128 .f32) (k q : Fin 128) :
    View.ld x4 rRel0 (ix3 (0 : Fin 1) k q) = x4 (ix3 (0 : Fin 3) k q) :=
  congrArg x4 (funext fun ax => Fin.ext (by
    match ax with
    | ⟨0, _⟩ => rfl
    | ⟨1, _⟩ => show 0 + 1 * k.val = k.val; omega
    | ⟨2, _⟩ => show 0 + 1 * q.val = q.val; omega))
theorem ld_rel1 (x4 : Vec Ideal S3x128x128 .f32) (k q : Fin 128) :
    View.ld x4 rRel1 (ix3 (0 : Fin 1) k q) = x4 (ix3 (1 : Fin 3) k q) :=
  congrArg x4 (funext fun ax => Fin.ext (by
    match ax with
    | ⟨0, _⟩ => rfl
    | ⟨1, _⟩ => show 0 + 1 * k.val = k.val; omega
    | ⟨2, _⟩ => show 0 + 1 * q.val = q.val; omega))
theorem ld_rel2 (x4 : Vec Ideal S3x128x128 .f32) (k q : Fin 128) :
    View.ld x4 rRel2 (ix3 (0 : Fin 1) k q) = x4 (ix3 (2 : Fin 3) k q) :=
  congrArg x4 (funext fun ax => Fin.ext (by
    match ax with
    | ⟨0, _⟩ => rfl
    | ⟨1, _⟩ => show 0 + 1 * k.val = k.val; omega
    | ⟨2, _⟩ => show 0 + 1 * q.val = q.val; omega))

/-! ## The summands of the tile at (p, q) -/

/-- A whole-buffer load, then a cast to the same shape, reads the buffer. -/
theorem self_w (x2 : Vec Ideal S128x128 .f32) (k q : Fin 128) :
    (shapeCast S128x128 (View.ld x2 rSelf) shapeCasts_S128x128_S128x128 : FVec Ideal S128x128 .f32) (ix2 k q) = x2 (ix2 k q) :=
  (shapeCast_apply (View.ld x2 rSelf) shapeCasts_S128x128_S128x128 (ix2 k q) (ix2 k q) rfl).trans
    (congrFun (View.ld_unit_zero zeros2 _ x2) (ix2 k q))
theorem bias_w (x3 : Vec Ideal S1x128 .f32) (u : Fin 1) (q : Fin 128) :
    (shapeCast S1x128 (View.ld x3 rBias) shapeCasts_S1x128_S1x128 : FVec Ideal S1x128 .f32) (ix2 u q) = x3 (ix2 u q) :=
  (shapeCast_apply (View.ld x3 rBias) shapeCasts_S1x128_S1x128 (ix2 u q) (ix2 u q) rfl).trans
    (congrFun (View.ld_unit_zero zeros2 _ x3) (ix2 u q))
theorem tile_w (x0 : Vec Ideal S5000x128 .f32) (p : Fin 5000) (k : Fin 128) :
    (View.ld x0 rTile : FVec Ideal S5000x128 .f32) (ix2 p k) = x0 (ix2 p k) :=
  congrFun (View.ld_unit_zero zeros2 _ x0) (ix2 p k)

/-- The features' tile times the transposed self weight. -/
theorem self_term (x0 : Vec Ideal S5000x128 .f32) (x2 : Vec Ideal S128x128 .f32) (p : Fin 5000) (q : Fin 128) :
    matmul (F := Ideal) (φ₁ := .f32) (φ₂ := .f32) dot_S5000x128_S128x128_S5000x128_1_0_0_1_n_n none (View.ld x0 rTile : FVec Ideal S5000x128 .f32)
        (shapeCast S128x128 (View.ld x2 rSelf) shapeCasts_S128x128_S128x128 : FVec Ideal S128x128 .f32) (constant S5000x128 .f32 0x00000000#32) (ix2 p q)
      = ∑ k : Fin 128, x0 (ix2 p k) * x2 (ix2 k q) := by
  rw [mm_apply]
  refine Finset.sum_congr rfl fun k _ => ?_
  rw [self_w, tile_w]

/-- The bias row spread over the rows. -/
theorem bias_term (x3 : Vec Ideal S1x128 .f32) (p : Fin 5000) (q : Fin 128) :
    (broadcastTo S5000x128 (shapeCast S1x128 (View.ld x3 rBias) shapeCasts_S1x128_S1x128 : FVec Ideal S1x128 .f32) broadcasts_S1x128_S5000x128 : FVec Ideal S5000x128 .f32) (ix2 p q)
      = x3 (ix2 (0 : Fin 1) q) := by
  rw [broadcastTo_1b_ab_apply, bias_w]

/-- Relation 0's slab of the aggregates times its slab of the weights. -/
theorem rel0_term (x1 : Vec Ideal S3x5000x128 .f32) (x4 : Vec Ideal S3x128x128 .f32) (p : Fin 5000) (q : Fin 128) :
    matmul (F := Ideal) (φ₁ := .f32) (φ₂ := .f32) dot_S5000x128_S128x128_S5000x128_1_0_0_1_n_n none
        (shapeCast S5000x128 (View.ld x1 rAgg0) shapeCasts_S1x5000x128_S5000x128 : FVec Ideal S5000x128 .f32)
        (shapeCast S128x128 (View.ld x4 rRel0) shapeCasts_S1x128x128_S128x128 : FVec Ideal S128x128 .f32) (constant S5000x128 .f32 0x00000000#32) (ix2 p q)
      = ∑ k : Fin 128, x1 (ix3 (0 : Fin 3) p k) * x4 (ix3 (0 : Fin 3) k q) := by
  rw [mm_apply]
  refine Finset.sum_congr rfl fun k _ => ?_
  rw [shapeCast_1ab_ab_apply, shapeCast_1ab_ab_apply, ld_agg0, ld_rel0]
theorem rel1_term (x1 : Vec Ideal S3x5000x128 .f32) (x4 : Vec Ideal S3x128x128 .f32) (p : Fin 5000) (q : Fin 128) :
    matmul (F := Ideal) (φ₁ := .f32) (φ₂ := .f32) dot_S5000x128_S128x128_S5000x128_1_0_0_1_n_n none
        (shapeCast S5000x128 (View.ld x1 rAgg1) shapeCasts_S1x5000x128_S5000x128 : FVec Ideal S5000x128 .f32)
        (shapeCast S128x128 (View.ld x4 rRel1) shapeCasts_S1x128x128_S128x128 : FVec Ideal S128x128 .f32) (constant S5000x128 .f32 0x00000000#32) (ix2 p q)
      = ∑ k : Fin 128, x1 (ix3 (1 : Fin 3) p k) * x4 (ix3 (1 : Fin 3) k q) := by
  rw [mm_apply]
  refine Finset.sum_congr rfl fun k _ => ?_
  rw [shapeCast_1ab_ab_apply, shapeCast_1ab_ab_apply, ld_agg1, ld_rel1]
theorem rel2_term (x1 : Vec Ideal S3x5000x128 .f32) (x4 : Vec Ideal S3x128x128 .f32) (p : Fin 5000) (q : Fin 128) :
    matmul (F := Ideal) (φ₁ := .f32) (φ₂ := .f32) dot_S5000x128_S128x128_S5000x128_1_0_0_1_n_n none
        (shapeCast S5000x128 (View.ld x1 rAgg2) shapeCasts_S1x5000x128_S5000x128 : FVec Ideal S5000x128 .f32)
        (shapeCast S128x128 (View.ld x4 rRel2) shapeCasts_S1x128x128_S128x128 : FVec Ideal S128x128 .f32) (constant S5000x128 .f32 0x00000000#32) (ix2 p q)
      = ∑ k : Fin 128, x1 (ix3 (2 : Fin 3) p k) * x4 (ix3 (2 : Fin 3) k q) := by
  rw [mm_apply]
  refine Finset.sum_congr rfl fun k _ => ?_
  rw [shapeCast_1ab_ab_apply, shapeCast_1ab_ab_apply, ld_agg2, ld_rel2]

/-! ## The tile at an entry -/

/-- The stored tile at (p, q): the five summands, added in the body's order. -/
theorem tileOf_apply (x0 : Vec Ideal S5000x128 .f32) (x1 : Vec Ideal S3x5000x128 .f32) (x2 : Vec Ideal S128x128 .f32)
    (x3 : Vec Ideal S1x128 .f32) (x4 : Vec Ideal S3x128x128 .f32) (p : Fin 5000) (q : Fin 128) :
    tileOf (F := Ideal) x0 x1 x2 x3 x4 (ix2 p q)
      = (∑ k : Fin 128, x0 (ix2 p k) * x2 (ix2 k q)) + x3 (ix2 (0 : Fin 1) q)
        + (∑ k : Fin 128, x1 (ix3 (0 : Fin 3) p k) * x4 (ix3 (0 : Fin 3) k q))
        + (∑ k : Fin 128, x1 (ix3 (1 : Fin 3) p k) * x4 (ix3 (1 : Fin 3) k q))
        + (∑ k : Fin 128, x1 (ix3 (2 : Fin 3) p k) * x4 (ix3 (2 : Fin 3) k q)) := by
  unfold tileOf k0_pay1
  exact congrArg₂ (· + ·) (congrArg₂ (· + ·) (congrArg₂ (· + ·) (congrArg₂ (· + ·)
    (self_term x0 x2 p q) (bias_term x3 p q)) (rel0_term x1 x4 p q)) (rel1_term x1 x4 p q)) (rel2_term x1 x4 p q)

end Cert.KernelIdeal.Val

end
-- ==== Proof.LibNary3.lean ====
/-
  A host operation of THREE operands given as a literal family of references (a concatenation of three arrays),
  read at its result: the function applied to each operand's contents AT ITS OWN REFERENCE, so that the contents of
  the three operands can be rewritten further one by one; and the fold of a list of host operations over a
  concatenation of two lists is the fold of the second over the fold of the first.
-/
import Idealize.ShloMosaic.Lib.StableHlo.Run

noncomputable section

namespace Idealize.ShloMosaic.StableHlo

variable {τ : Topo} {sig : RefSig} {Val : EltTy → Type}

/-- The result of a three-operand operation, each operand's contents read at its own literal reference. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The contents after two lists of operations run one after the other. -/
theorem after_append (l₁ l₂ : List (HloOp τ sig Val)) (X : Valuation τ sig Val) :
    after (l₁ ++ l₂) X = after l₂ (after l₁ X) := by
  induction l₁ generalizing X with
  | nil => rfl
  | cons op ops ih => exact ih _

end Idealize.ShloMosaic.StableHlo

end
-- ==== Proof.KernelIdealEntry.lean ====
/-
  What the region's five input arrays hold when the region is entered, read at an entry.

  The stacked aggregates at (relation, i, k) are that relation's aggregate at (i, k): the stack is the concatenation,
  along a new leading axis, of the three aggregates each given a leading unit axis.  The transposed self weight at
  (k, q) is the self weight at (q, k); the transposed relation weights at (relation, k, q) are the relation weights at
  (relation, q, k); the bias made a row reads, at (0, q), the bias at q.  The aggregates themselves — the buffers the
  three scatter-adds wrote — are never opened: they enter only as arrays read at an index.
-/
import proofs.«118483_j63582695850894_1_alg».proof.Proof.KernelIdealBody
import proofs.«118483_j63582695850894_1_alg».proof.Proof.LibNary3
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The rewriting loop that reads one buffer's contents after a literal list of host operations, with the
    three-operand form tried before the general one. -/
local macro "host_results" : tactic =>
  `(tactic| (simp only [after_cons, after_nil]
             repeat (first
               | rw [nullary_result] | rw [unary_result] | rw [binary_result] | rw [ternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

/-- Core `c`'s buffers after the first sixty host operations (everything up to the third relation's messages). -/
def W (c : Dev nD) : Valuation τ sig (Elt Ideal) := StableHlo.after main_part0_ops0 (fun b => m (c, b))

/-- The region-entry contents are the last thirteen host operations over those. -/
theorem ops_split : (hostOps0 : List (HloOp τ sig (Elt Ideal))) = main_part0_ops0 ++ main_part1_ops0 := by
  simp only [hostOps0, main_part0_ops0, main_part1_ops0, List.cons_append, List.nil_append]

theorem V_split (c : Dev nD) (b : Ref sig .tc) :
    V m c b = StableHlo.after main_part1_ops0 (W m c) (Proc.devRef .tc b) :=
  (congrArg (fun l => StableHlo.after l (fun b => m (c, b)) (Proc.devRef .tc b)) ops_split).trans
    (congrFun (after_append main_part0_ops0 main_part1_ops0 (fun b => m (c, b))) (Proc.devRef .tc b))

set_option maxHeartbeats 8000000 in
/-- The stacked aggregates are the concatenation of the three aggregates, each under a leading unit axis. -/
theorem V_stack (c : Dev nD) : (V m c main_v60 : S3x100000x128.Idx → EReal)
    = concatenate S3x100000x128 0
        [⟨S1x100000x128, broadcastInDim S1x100000x128 ![1, 2] bcast_S100000x128_S1x100000x128_1_2 (V m c main_v18 : S100000x128.Idx → EReal)⟩,
         ⟨S1x100000x128, broadcastInDim S1x100000x128 ![1, 2] bcast_S100000x128_S1x100000x128_1_2 (V m c main_v37 : S100000x128.Idx → EReal)⟩,
         ⟨S1x100000x128, broadcastInDim S1x100000x128 ![1, 2] bcast_S100000x128_S1x100000x128_1_2 (V m c main_v56 : S100000x128.Idx → EReal)⟩]
        concatenates_S1x100000x128_S1x100000x128_S1x100000x128_S3x100000x128_d0 := by
  rw [V_split, V_split, V_split, V_split]
  generalize W m c = X
  host_results
  rfl

set_option maxHeartbeats 4000000 in
/-- The transposed self weight, the transposed relation weights and the bias row, from the arguments. -/
theorem V_selfT (c : Dev nD) : (V m c main_v61 : S128x128.Idx → EReal)
    = transpose S128x128 [1, 0] (V m c main_arg4 : S128x128.Idx → EReal) transposes_S128x128_S128x128_1_0 := by
  rw [V_split, V_split]
  generalize W m c = X
  host_results
set_option maxHeartbeats 4000000 in
theorem V_relT (c : Dev nD) : (V m c main_v62 : S3x128x128.Idx → EReal)
    = transpose S3x128x128 [0, 2, 1] (V m c main_arg6 : S3x128x128.Idx → EReal) transposes_S3x128x128_S3x128x128_0_2_1 := by
  rw [V_split, V_split]
  generalize W m c = X
  host_results
set_option maxHeartbeats 4000000 in
theorem V_biasRow (c : Dev nD) : (V m c main_v63 : S1x128.Idx → EReal)
    = shapeCast S1x128 (V m c main_arg5 : S128.Idx → EReal) shapeCasts_S128_S1x128 := by
  rw [V_split, V_split]
  generalize W m c = X
  host_results
  rfl

end Cert.KernelIdeal.Val

end
-- ==== Proof.Combine.lean ====
/-
  The function both programs compute, entry by entry, on the extended reals.

  A node feature matrix `x` (100000 × 128), three aggregated neighbour matrices `a0 a1 a2` of the same shape (one per
  relation: the weighted segment sums of gathered rows of `x`), a self weight `ws` (128 × 128, stored output-major),
  a bias `b` (128) and three relation weights `wr` (3 × 128 × 128, output-major) give

      out[r, c] = (((Σ_k x[r,k]·ws[c,k]) + b[c]) + Σ_k a0[r,k]·wr[0,c,k]) + Σ_k a1[r,k]·wr[1,c,k]) + Σ_k a2[r,k]·wr[2,c,k].

  The parenthesisation is the one both programs use, so no law of the extended reals beyond reading each product
  at an entry is needed, and in particular no finiteness.
-/
import Idealize.ShloMosaic.PureOps.Ideal
import Idealize.ShloMosaic.Lib.ValueIdx

noncomputable section

namespace Cert.Combine

open Idealize.ShloMosaic Idealize.ShloMosaic.ValueIdx

/-- One inner product of a row of `y` with an output-major weight row: Σ_k y[r,k] · w[c,k]. -/
def rowDot (y : FVec Ideal ⟨2, ![100000, 128]⟩ .f32) (w : Fin 128 → Fin 128 → EReal) (r : Fin 100000) (c : Fin 128) : EReal :=
  ∑ k : Fin 128, y (ix2 r k) * w c k

/-- The entry `(r, c)` of the result. -/
def entry (x a0 a1 a2 : FVec Ideal ⟨2, ![100000, 128]⟩ .f32) (ws : FVec Ideal ⟨2, ![128, 128]⟩ .f32)
    (b : FVec Ideal ⟨1, ![128]⟩ .f32) (wr : FVec Ideal ⟨3, ![3, 128, 128]⟩ .f32) (r : Fin 100000) (c : Fin 128) : EReal :=
  rowDot x (fun c k => ws (ix2 c k)) r c + b (ix1 c)
    + rowDot a0 (fun c k => wr (ix3 (0 : Fin 3) c k)) r c
    + rowDot a1 (fun c k => wr (ix3 (1 : Fin 3) c k)) r c
    + rowDot a2 (fun c k => wr (ix3 (2 : Fin 3) c k)) r c

/-- The whole result array. -/
def out (x a0 a1 a2 : FVec Ideal ⟨2, ![100000, 128]⟩ .f32) (ws : FVec Ideal ⟨2, ![128, 128]⟩ .f32)
    (b : FVec Ideal ⟨1, ![128]⟩ .f32) (wr : FVec Ideal ⟨3, ![3, 128, 128]⟩ .f32) : FVec Ideal ⟨2, ![100000, 128]⟩ .f32 :=
  fun i => entry x a0 a1 a2 ws b wr (i 0) (i 1)

theorem out_ix2 (x a0 a1 a2 : FVec Ideal ⟨2, ![100000, 128]⟩ .f32) (ws : FVec Ideal ⟨2, ![128, 128]⟩ .f32)
    (b : FVec Ideal ⟨1, ![128]⟩ .f32) (wr : FVec Ideal ⟨3, ![3, 128, 128]⟩ .f32) (r : Fin 100000) (c : Fin 128) :
    out x a0 a1 a2 ws b wr (ix2 r c) = entry x a0 a1 a2 ws b wr r c := rfl

end Cert.Combine

end
-- ==== Proof.KernelIdealFinal.lean ====
/-
  From tiles to the whole result, on the extended reals.

  Grid point t stores the tile of rows 5000·t … 5000·t + 4999.  Its inputs are the same rows of the node features and
  of each stacked aggregate, and the whole (transposed) weights and bias row at every point.  So the tile it writes
  back is the block, at those rows, of ONE function of the arrays as the region finds them — `Cert.Combine.out` of the
  node features, the three aggregates, the self weight, the bias and the relation weights —, the twenty tiles cover
  the 100000 rows, and the result array ends holding that function.
-/
import proofs.«118483_j63582695850894_1_alg».proof.Proof.KernelIdealTile
import proofs.«118483_j63582695850894_1_alg».proof.Proof.KernelIdealEntry
import proofs.«118483_j63582695850894_1_alg».proof.Proof.Combine

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The stack of three arrays read at an entry -/

theorem stack3_at0 (a0 a1 a2 : S100000x128.Idx → EReal) (i : Fin 100000) (k : Fin 128) :
    concatenate S3x100000x128 0
        [⟨S1x100000x128, broadcastInDim S1x100000x128 ![1, 2] bcast_S100000x128_S1x100000x128_1_2 a0⟩,
         ⟨S1x100000x128, broadcastInDim S1x100000x128 ![1, 2] bcast_S100000x128_S1x100000x128_1_2 a1⟩,
         ⟨S1x100000x128, broadcastInDim S1x100000x128 ![1, 2] bcast_S100000x128_S1x100000x128_1_2 a2⟩]
        concatenates_S1x100000x128_S1x100000x128_S1x100000x128_S3x100000x128_d0 (ix3 (0 : Fin 3) i k) = a0 (ix2 i k) :=
  (concatenate_apply_piece (t := S3x100000x128) 0
      [⟨S1x100000x128, broadcastInDim S1x100000x128 ![1, 2] bcast_S100000x128_S1x100000x128_1_2 a0⟩,
         ⟨S1x100000x128, broadcastInDim S1x100000x128 ![1, 2] bcast_S100000x128_S1x100000x128_1_2 a1⟩,
         ⟨S1x100000x128, broadcastInDim S1x100000x128 ![1, 2] bcast_S100000x128_S1x100000x128_1_2 a2⟩]
      concatenates_S1x100000x128_S1x100000x128_S1x100000x128_S3x100000x128_d0
      (ix3 (0 : Fin 3) i k) 0 (show (0 : ℕ) < 3 by omega) S1x100000x128 _ rfl rfl 0 rfl (ix3 (0 : Fin 1) i k)
      (fun b hb => by match b with | ⟨0, _⟩ => exact absurd rfl hb | ⟨1, _⟩ => rfl | ⟨2, _⟩ => rfl) rfl).trans
    (broadcastInDim_apply ![1, 2] bcast_S100000x128_S1x100000x128_1_2 a0 (ix3 (0 : Fin 1) i k) (ix2 i k)
      (fun ax => by match ax with | ⟨0, _⟩ => rfl | ⟨1, _⟩ => rfl))

theorem stack3_at1 (a0 a1 a2 : S100000x128.Idx → EReal) (i : Fin 100000) (k : Fin 128) :
    concatenate S3x100000x128 0
        [⟨S1x100000x128, broadcastInDim S1x100000x128 ![1, 2] bcast_S100000x128_S1x100000x128_1_2 a0⟩,
         ⟨S1x100000x128, broadcastInDim S1x100000x128 ![1, 2] bcast_S100000x128_S1x100000x128_1_2 a1⟩,
         ⟨S1x100000x128, broadcastInDim S1x100000x128 ![1, 2] bcast_S100000x128_S1x100000x128_1_2 a2⟩]
        concatenates_S1x100000x128_S1x100000x128_S1x100000x128_S3x100000x128_d0 (ix3 (1 : Fin 3) i k) = a1 (ix2 i k) :=
  (concatenate_apply_piece (t := S3x100000x128) 0
      [⟨S1x100000x128, broadcastInDim S1x100000x128 ![1, 2] bcast_S100000x128_S1x100000x128_1_2 a0⟩,
         ⟨S1x100000x128, broadcastInDim S1x100000x128 ![1, 2] bcast_S100000x128_S1x100000x128_1_2 a1⟩,
         ⟨S1x100000x128, broadcastInDim S1x100000x128 ![1, 2] bcast_S100000x128_S1x100000x128_1_2 a2⟩]
      concatenates_S1x100000x128_S1x100000x128_S1x100000x128_S3x100000x128_d0
      (ix3 (1 : Fin 3) i k) 1 (show (1 : ℕ) < 3 by omega) S1x100000x128 _ rfl rfl 1 rfl (ix3 (0 : Fin 1) i k)
      (fun b hb => by match b with | ⟨0, _⟩ => exact absurd rfl hb | ⟨1, _⟩ => rfl | ⟨2, _⟩ => rfl) rfl).trans
    (broadcastInDim_apply ![1, 2] bcast_S100000x128_S1x100000x128_1_2 a1 (ix3 (0 : Fin 1) i k) (ix2 i k)
      (fun ax => by match ax with | ⟨0, _⟩ => rfl | ⟨1, _⟩ => rfl))

theorem stack3_at2 (a0 a1 a2 : S100000x128.Idx → EReal) (i : Fin 100000) (k : Fin 128) :
    concatenate S3x100000x128 0
        [⟨S1x100000x128, broadcastInDim S1x100000x128 ![1, 2] bcast_S100000x128_S1x100000x128_1_2 a0⟩,
         ⟨S1x100000x128, broadcastInDim S1x100000x128 ![1, 2] bcast_S100000x128_S1x100000x128_1_2 a1⟩,
         ⟨S1x100000x128, broadcastInDim S1x100000x128 ![1, 2] bcast_S100000x128_S1x100000x128_1_2 a2⟩]
        concatenates_S1x100000x128_S1x100000x128_S1x100000x128_S3x100000x128_d0 (ix3 (2 : Fin 3) i k) = a2 (ix2 i k) :=
  (concatenate_apply_piece (t := S3x100000x128) 0
      [⟨S1x100000x128, broadcastInDim S1x100000x128 ![1, 2] bcast_S100000x128_S1x100000x128_1_2 a0⟩,
         ⟨S1x100000x128, broadcastInDim S1x100000x128 ![1, 2] bcast_S100000x128_S1x100000x128_1_2 a1⟩,
         ⟨S1x100000x128, broadcastInDim S1x100000x128 ![1, 2] bcast_S100000x128_S1x100000x128_1_2 a2⟩]
      concatenates_S1x100000x128_S1x100000x128_S1x100000x128_S3x100000x128_d0
      (ix3 (2 : Fin 3) i k) 2 (show (2 : ℕ) < 3 by omega) S1x100000x128 _ rfl rfl 2 rfl (ix3 (0 : Fin 1) i k)
      (fun b hb => by match b with | ⟨0, _⟩ => exact absurd rfl hb | ⟨1, _⟩ => rfl | ⟨2, _⟩ => rfl) rfl).trans
    (broadcastInDim_apply ![1, 2] bcast_S100000x128_S1x100000x128_1_2 a2 (ix3 (0 : Fin 1) i k) (ix2 i k)
      (fun ax => by match ax with | ⟨0, _⟩ => rfl | ⟨1, _⟩ => rfl))

/-! ## The region's input arrays read at an entry -/

theorem agg_read0 (c : Dev nD) (i : Fin 100000) (k : Fin 128) :
    (V m c main_v60 : S3x100000x128.Idx → EReal) (ix3 (0 : Fin 3) i k) = (V m c main_v18 : S100000x128.Idx → EReal) (ix2 i k) :=
  (congrFun (V_stack m c) _).trans (stack3_at0 _ _ _ i k)
theorem agg_read1 (c : Dev nD) (i : Fin 100000) (k : Fin 128) :
    (V m c main_v60 : S3x100000x128.Idx → EReal) (ix3 (1 : Fin 3) i k) = (V m c main_v37 : S100000x128.Idx → EReal) (ix2 i k) :=
  (congrFun (V_stack m c) _).trans (stack3_at1 _ _ _ i k)
theorem agg_read2 (c : Dev nD) (i : Fin 100000) (k : Fin 128) :
    (V m c main_v60 : S3x100000x128.Idx → EReal) (ix3 (2 : Fin 3) i k) = (V m c main_v56 : S100000x128.Idx → EReal) (ix2 i k) :=
  (congrFun (V_stack m c) _).trans (stack3_at2 _ _ _ i k)
theorem selfT_read (c : Dev nD) (k q : Fin 128) :
    (V m c main_v61 : S128x128.Idx → EReal) (ix2 k q) = (V m c main_arg4 : S128x128.Idx → EReal) (ix2 q k) :=
  (congrFun (V_selfT m c) _).trans (transpose_ix2_apply _ _ k q)
theorem relT_read (c : Dev nD) (r : Fin 3) (k q : Fin 128) :
    (V m c main_v62 : S3x128x128.Idx → EReal) (ix3 r k q) = (V m c main_arg6 : S3x128x128.Idx → EReal) (ix3 r q k) :=
  (congrFun (V_relT m c) _).trans (transpose_ix3_021_apply _ _ r k q)
theorem biasRow_read (c : Dev nD) (q : Fin 128) :
    (V m c main_v63 : S1x128.Idx → EReal) (ix2 (0 : Fin 1) q) = (V m c main_arg5 : S128.Idx → EReal) (ix1 q) :=
  (congrFun (V_biasRow m c) _).trans (shapeCast_a_1a_apply _ _ 0 q)

/-! ## The blocks -/

/-- The block index maps, decided over the twenty points: the features', the aggregates' and the result's blocks move
    with the point along the row axis; the weights' and the bias's stay. -/
theorem idx_rows : ∀ t : Fin cfg0.N, win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_5.index t (0 : Fin 2) = t.val ∧ win0_5.index t (1 : Fin 2) = 0 :=
  (by decide +kernel : ∀ t : Fin grid0.N, _)
theorem idx_fixed : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0 :=
  (by decide +kernel : ∀ t : Fin grid0.N, _)

theorem point_lt (t : Fin cfg0.N) : t.val < 20 := lt_of_lt_of_eq t.isLt N_0

/-- Row p of point t's tile is row 5000·t + p of the array. -/
def row (t : Fin cfg0.N) (p : Fin 5000) : Fin 100000 :=
  ⟨t.val * 5000 + p.val, by have := point_lt t; have := p.isLt; omega⟩

theorem blk0 (c : Dev nD) (t : Fin cfg0.N) (p : Fin 5000) (k : Fin 128) :
    iblk m c 0 t (ix2 p k) = (V m c main_arg0 : S100000x128.Idx → EReal) (ix2 (row t p) k) := by
  obtain ⟨e0, e1, -⟩ := idx_rows t
  show V m c main_arg0 (((cfg0.win 0).blk t).view.emb (ix2 p k)) = _
  refine congrArg (V m c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

theorem blk1 (c : Dev nD) (t : Fin cfg0.N) (r : Fin 3) (p : Fin 5000) (k : Fin 128) :
    iblk m c 1 t (ix3 r p k) = (V m c main_v60 : S3x100000x128.Idx → EReal) (ix3 r (row t p) k) := by
  obtain ⟨-, -, e0, e1, e2, -⟩ := idx_rows t
  show V m c main_v60 (((cfg0.win 1).blk t).view.emb (ix3 r p k)) = _
  refine congrArg (V m c main_v60) (funext fun a => Fin.ext ?_)
  match a with
  | ⟨0, _⟩ => show win0_1.index t (0 : Fin 3) * 3 + 1 * r.val = r.val; omega
  | ⟨1, _⟩ => show win0_1.index t (1 : Fin 3) * 5000 + 1 * p.val = t.val * 5000 + p.val; omega
  | ⟨2, _⟩ => show win0_1.index t (2 : Fin 3) * 128 + 1 * k.val = k.val; omega

theorem blk2 (c : Dev nD) (t : Fin cfg0.N) (k q : Fin 128) :
    iblk m c 2 t (ix2 k q) = (V m c main_v61 : S128x128.Idx → EReal) (ix2 k q) := by
  obtain ⟨e0, e1, -⟩ := idx_fixed t
  show V m c main_v61 (((cfg0.win 2).blk t).view.emb (ix2 k q)) = _
  refine congrArg (V m c main_v61) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem blk3 (c : Dev nD) (t : Fin cfg0.N) (u : Fin 1) (q : Fin 128) :
    iblk m c 3 t (ix2 u q) = (V m c main_v63 : S1x128.Idx → EReal) (ix2 u q) := by
  obtain ⟨-, -, e0, e1, -⟩ := idx_fixed t
  show V m c main_v63 (((cfg0.win 3).blk t).view.emb (ix2 u q)) = _
  refine congrArg (V m c main_v63) (funext fun a => Fin.ext ?_)
  match a with
  | ⟨0, _⟩ => show win0_3.index t (0 : Fin 2) * 1 + 1 * u.val = u.val; omega
  | ⟨1, _⟩ => show win0_3.index t (1 : Fin 2) * 128 + 1 * q.val = q.val; omega

theorem blk4 (c : Dev nD) (t : Fin cfg0.N) (r : Fin 3) (k q : Fin 128) :
    iblk m c 4 t (ix3 r k q) = (V m c main_v62 : S3x128x128.Idx → EReal) (ix3 r k q) := by
  obtain ⟨-, -, -, -, e0, e1, e2⟩ := idx_fixed t
  show V m c main_v62 (((cfg0.win 4).blk t).view.emb (ix3 r k q)) = _
  refine congrArg (V m c main_v62) (funext fun a => Fin.ext ?_)
  match a with
  | ⟨0, _⟩ => show win0_4.index t (0 : Fin 3) * 3 + 1 * r.val = r.val; omega
  | ⟨1, _⟩ => show win0_4.index t (1 : Fin 3) * 128 + 1 * k.val = k.val; omega
  | ⟨2, _⟩ => show win0_4.index t (2 : Fin 3) * 128 + 1 * q.val = q.val; omega

/-! ## The whole result -/

/-- The result array as one function of the arrays the region finds. -/
def G (c : Dev nD) : S100000x128.Idx → EReal :=
  Cert.Combine.out (V m c main_arg0) (V m c main_v18) (V m c main_v37) (V m c main_v56) (V m c main_arg4) (V m c main_arg5)
    (V m c main_arg6)

/-- What point t writes back is block t of `G`. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after_5]
  unfold outTile
  rw [View.canon_unit_zero zeros2]
  funext j
  obtain ⟨p, q, rfl⟩ : ∃ (p : Fin 5000) (q : Fin 128), j = ix2 p q := ⟨j 0, j 1, eq_ix2 j⟩
  have hemb : ((cfg0.win 5).blk t).view.emb (ix2 p q) = (ix2 (row t p) q : S100000x128.Idx) := by
    obtain ⟨-, -, -, -, -, e0, e1⟩ := idx_rows t
    refine funext fun a => Fin.ext ?_
    match a with
    | ⟨0, _⟩ => show win0_5.index t (0 : Fin 2) * 5000 + 1 * p.val = t.val * 5000 + p.val; omega
    | ⟨1, _⟩ => show win0_5.index t (1 : Fin 2) * 128 + 1 * q.val = q.val; omega
  show tileOf (iblk m c 0 t) (iblk m c 1 t) (iblk m c 2 t) (iblk m c 3 t) (iblk m c 4 t) (ix2 p q)
    = G m c (((cfg0.win 5).blk t).view.emb (ix2 p q))
  rw [hemb]
  refine (tileOf_apply (iblk m c 0 t) (iblk m c 1 t) (iblk m c 2 t) (iblk m c 3 t) (iblk m c 4 t) p q).trans ?_
  show _ = Cert.Combine.entry (V m c main_arg0) (V m c main_v18) (V m c main_v37) (V m c main_v56) (V m c main_arg4)
    (V m c main_arg5) (V m c main_arg6) (row t p) q
  unfold Cert.Combine.entry Cert.Combine.rowDot
  refine congrArg₂ (· + ·) (congrArg₂ (· + ·) (congrArg₂ (· + ·) (congrArg₂ (· + ·) ?_ ?_) ?_) ?_) ?_
  · exact Finset.sum_congr rfl fun k _ => by rw [blk0, blk2, selfT_read]
  · rw [blk3, biasRow_read]
  · exact Finset.sum_congr rfl fun k _ => by rw [blk1, blk4, agg_read0, relT_read]
  · exact Finset.sum_congr rfl fun k _ => by rw [blk1, blk4, agg_read1, relT_read]
  · exact Finset.sum_congr rfl fun k _ => by rw [blk1, blk4, agg_read2, relT_read]

/-- An index is in point t's block iff each coordinate is in the block's range. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v64).slice (win0_5.rect t)).set ↔ _
  rw [View.set_slice_whole, Rect.mem_set_unit]
  exact Iff.rfl

/-- Every row is in some point's tile: row i is in tile i / 5000. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 5000 < cfg0.N := by show _ < grid0.N; rw [N_0]; omega
  obtain ⟨-, -, -, -, -, e0, e1⟩ := idx_rows ⟨(i 0).val / 5000, hN⟩
  refine ⟨⟨(i 0).val / 5000, hN⟩, flush0_5 _, ?_⟩
  rw [mem_blk]
  intro a
  match a with
  | ⟨0, _⟩ =>
    show win0_5.index ⟨(i 0).val / 5000, hN⟩ (0 : Fin 2) * 5000 ≤ (i 0).val
      ∧ (i 0).val < win0_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hN⟩ (1 : Fin 2) * 128 ≤ (i 1).val
      ∧ (i 1).val < win0_5.index ⟨(i 0).val / 5000, hN⟩ (1 : Fin 2) * 128 + 128
    rw [e1]; omega

/-- The result array after the run. -/
theorem final (c : Dev nD) : (dats m 0 c).arrAt 5 cfg0.N = G m c :=
  (dats m 0 c).arrAt_eq_of_cover 5 (G m c) (fun t _ => flushed_eq m c t) covered

/-- The run of the program on the extended reals: the result is `Cert.Combine.out` of the node features, the three
    aggregates as the region finds them, the self weight, the bias and the relation weights; the arguments end as launched. -/
theorem run : θ_run defs (onTc (τ := τ) (main (F := Ideal))) ⟨m, fun _ => 0, ρ⟩ fun r => ∀ c : Dev nD,
      r.2.mem ((c.tc : Thread nD τ).loc main_v64)
        = Cert.Combine.out (m ((c.tc : Thread nD τ).loc main_arg0)) (V m c main_v18) (V m c main_v37) (V m c main_v56)
            (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨by
      refine (((h c).1 5).trans (final m c)).trans ?_
      unfold G
      rw [V_main_arg0, V_main_arg4, V_main_arg5, V_main_arg6],
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.Val

end
-- ==== Proof.RefCombine.lean ====
/-
  The reference program computes the specification.

  The reference's result is  (((x · W_selfᵀ + b) + a₀ · W₀ᵀ) + a₁ · W₁ᵀ) + a₂ · W₂ᵀ,  where a₀, a₁, a₂ are its three
  scatter-add results (they enter only as arrays read at an index) and W_r is the r-th slice of the
  relation weights. Read at the entry (r, c):
    * each product is the sum over k of the left operand at (r, k) times the TRANSPOSED weight at (k, c);
    * the transposed self weight at (k, c) is the stored self weight at (c, k);
    * the transposed, reshaped r-th slice of the relation weights at (k, c) is the stored relation weight at (r, c, k)
      (the reshape [1,128,128] → [128,128] sends the flat position c·128 + k back to (0, c, k));
    * the twice-broadcast bias at (r, c) is the bias at c.
  The additions are nested exactly as in `Cert.Combine.entry`, so no law of the extended reals is used.
-/
import proofs.«118483_j63582695850894_1_alg».proof.Proof.Gen.ReferenceIdeal.Read
import proofs.«118483_j63582695850894_1_alg».proof.Proof.Combine

noncomputable section

namespace Cert.ReferenceIdeal.RefCombine

open Cert.ReferenceIdeal Cert.ReferenceIdeal.Gen Cert.ReferenceIdeal.Read Idealize.ShloMosaic Idealize.ShloMosaic.ValueIdx

/-! ## The operand indices of the four products at the entry (r, c) and the contraction index k -/

theorem lidx1 (r : Fin 100000) (c k : Fin 128) : lidx_main_v1 (ix2 r c) k = ix2 r k :=
  funext fun a => by match a with | ⟨0, _⟩ => rfl | ⟨1, _⟩ => rfl
theorem ridx1 (r : Fin 100000) (c k : Fin 128) : ridx_main_v1 (ix2 r c) k = ix2 k c :=
  funext fun a => by match a with | ⟨0, _⟩ => rfl | ⟨1, _⟩ => rfl
theorem lidx27 (r : Fin 100000) (c k : Fin 128) : lidx_main_v27 (ix2 r c) k = ix2 r k :=
  funext fun a => by match a with | ⟨0, _⟩ => rfl | ⟨1, _⟩ => rfl
theorem ridx27 (r : Fin 100000) (c k : Fin 128) : ridx_main_v27 (ix2 r c) k = ix2 k c :=
  funext fun a => by match a with | ⟨0, _⟩ => rfl | ⟨1, _⟩ => rfl
theorem lidx51 (r : Fin 100000) (c k : Fin 128) : lidx_main_v51 (ix2 r c) k = ix2 r k :=
  funext fun a => by match a with | ⟨0, _⟩ => rfl | ⟨1, _⟩ => rfl
theorem ridx51 (r : Fin 100000) (c k : Fin 128) : ridx_main_v51 (ix2 r c) k = ix2 k c :=
  funext fun a => by match a with | ⟨0, _⟩ => rfl | ⟨1, _⟩ => rfl
theorem lidx75 (r : Fin 100000) (c k : Fin 128) : lidx_main_v75 (ix2 r c) k = ix2 r k :=
  funext fun a => by match a with | ⟨0, _⟩ => rfl | ⟨1, _⟩ => rfl
theorem ridx75 (r : Fin 100000) (c k : Fin 128) : ridx_main_v75 (ix2 r c) k = ix2 k c :=
  funext fun a => by match a with | ⟨0, _⟩ => rfl | ⟨1, _⟩ => rfl

/-! ## The weights and the bias read at an index -/

/-- The transposed self weight at (k, c) is the stored self weight at (c, k). -/
theorem wself_read (x4 : (⟨S128x128, .f32⟩ : BufTy).Contents (Elt Ideal)) (k c : Fin 128) :
    val_main_v0 (F := Ideal) x4 (ix2 k c) = x4 (ix2 c k) := by
  rw [val_main_v0_apply]
  exact congrArg x4 (funext fun a => by match a with | ⟨0, _⟩ => rfl | ⟨1, _⟩ => rfl)

/-- The bias, broadcast to one row and then to every row, at (r, c) is the bias at c. -/
theorem bias_read (x5 : (⟨S128, .f32⟩ : BufTy).Contents (Elt Ideal)) (r : Fin 100000) (c : Fin 128) :
    val_main_v3 (F := Ideal) x5 (ix2 r c) = x5 (ix1 c) := by
  rw [val_main_v3_apply, val_main_v2_apply]
  exact congrArg x5 (funext fun a => by match a with | ⟨0, _⟩ => rfl)

/-- The flat position c·128 + k of a 128 × 128 array splits back into (c, k). -/
theorem split_flat (c k : Fin 128) : (c.val * 128 + k.val) / 128 % 128 = c.val ∧ (c.val * 128 + k.val) % 128 = k.val := by
  have hc := c.isLt; have hk := k.isLt; omega

/-- Slice 0 of the relation weights, reshaped to a matrix and transposed, at (k, c) is the stored weight at (0, c, k). -/
theorem wrel0_read (x6 : (⟨S3x128x128, .f32⟩ : BufTy).Contents (Elt Ideal)) (k c : Fin 128) :
    val_main_v26 (F := Ideal) x6 (ix2 k c) = x6 (ix3 (0 : Fin 3) c k) := by
  rw [val_main_v26_apply, val_main_v25_apply, val_main_v24_apply]
  refine congrArg x6 (funext fun a => Fin.ext ?_)
  match a with
  | ⟨0, _⟩ => rfl
  | ⟨1, _⟩ => exact (split_flat c k).1
  | ⟨2, _⟩ => exact (split_flat c k).2

/-- Slice 1 likewise: the stored weight at (1, c, k). -/
theorem wrel1_read (x6 : (⟨S3x128x128, .f32⟩ : BufTy).Contents (Elt Ideal)) (k c : Fin 128) :
    val_main_v50 (F := Ideal) x6 (ix2 k c) = x6 (ix3 (1 : Fin 3) c k) := by
  rw [val_main_v50_apply, val_main_v49_apply, val_main_v48_apply]
  refine congrArg x6 (funext fun a => Fin.ext ?_)
  match a with
  | ⟨0, _⟩ => rfl
  | ⟨1, _⟩ => exact (split_flat c k).1
  | ⟨2, _⟩ => exact (split_flat c k).2

/-- Slice 2 likewise: the stored weight at (2, c, k). -/
theorem wrel2_read (x6 : (⟨S3x128x128, .f32⟩ : BufTy).Contents (Elt Ideal)) (k c : Fin 128) :
    val_main_v74 (F := Ideal) x6 (ix2 k c) = x6 (ix3 (2 : Fin 3) c k) := by
  rw [val_main_v74_apply, val_main_v73_apply, val_main_v72_apply]
  refine congrArg x6 (funext fun a => Fin.ext ?_)
  match a with
  | ⟨0, _⟩ => rfl
  | ⟨1, _⟩ => exact (split_flat c k).1
  | ⟨2, _⟩ => exact (split_flat c k).2

/-! ## The four products at the entry (r, c) -/

/-- x · W_selfᵀ at (r, c). -/
theorem self_dot (x0 : (⟨S100000x128, .f32⟩ : BufTy).Contents (Elt Ideal)) (x4 : (⟨S128x128, .f32⟩ : BufTy).Contents (Elt Ideal))
    (r : Fin 100000) (c : Fin 128) :
    val_main_v1 (F := Ideal) x0 x4 (ix2 r c) = Cert.Combine.rowDot x0 (fun c k => x4 (ix2 c k)) r c := by
  rw [val_main_v1_apply]
  unfold Cert.Combine.rowDot
  refine Finset.sum_congr rfl fun k _ => ?_
  rw [lidx1, ridx1, wself_read]

/-- a₀ · W₀ᵀ at (r, c). -/
theorem rel0_dot (x0 : (⟨S100000x128, .f32⟩ : BufTy).Contents (Elt Ideal)) (x1 x2 : (⟨S3x600000, .i32⟩ : BufTy).Contents (Elt Ideal))
    (x3 : (⟨S3x600000, .f32⟩ : BufTy).Contents (Elt Ideal)) (x6 : (⟨S3x128x128, .f32⟩ : BufTy).Contents (Elt Ideal))
    (r : Fin 100000) (c : Fin 128) :
    val_main_v27 (F := Ideal) x0 x1 x2 x3 x6 (ix2 r c)
      = Cert.Combine.rowDot (val_main_v23 (F := Ideal) x0 x1 x2 x3) (fun c k => x6 (ix3 (0 : Fin 3) c k)) r c := by
  rw [val_main_v27_apply]
  unfold Cert.Combine.rowDot
  refine Finset.sum_congr rfl fun k _ => ?_
  rw [lidx27, ridx27, wrel0_read]

/-- a₁ · W₁ᵀ at (r, c). -/
theorem rel1_dot (x0 : (⟨S100000x128, .f32⟩ : BufTy).Contents (Elt Ideal)) (x1 x2 : (⟨S3x600000, .i32⟩ : BufTy).Contents (Elt Ideal))
    (x3 : (⟨S3x600000, .f32⟩ : BufTy).Contents (Elt Ideal)) (x6 : (⟨S3x128x128, .f32⟩ : BufTy).Contents (Elt Ideal))
    (r : Fin 100000) (c : Fin 128) :
    val_main_v51 (F := Ideal) x0 x1 x2 x3 x6 (ix2 r c)
      = Cert.Combine.rowDot (val_main_v47 (F := Ideal) x0 x1 x2 x3) (fun c k => x6 (ix3 (1 : Fin 3) c k)) r c := by
  rw [val_main_v51_apply]
  unfold Cert.Combine.rowDot
  refine Finset.sum_congr rfl fun k _ => ?_
  rw [lidx51, ridx51, wrel1_read]

/-- a₂ · W₂ᵀ at (r, c). -/
theorem rel2_dot (x0 : (⟨S100000x128, .f32⟩ : BufTy).Contents (Elt Ideal)) (x1 x2 : (⟨S3x600000, .i32⟩ : BufTy).Contents (Elt Ideal))
    (x3 : (⟨S3x600000, .f32⟩ : BufTy).Contents (Elt Ideal)) (x6 : (⟨S3x128x128, .f32⟩ : BufTy).Contents (Elt Ideal))
    (r : Fin 100000) (c : Fin 128) :
    val_main_v75 (F := Ideal) x0 x1 x2 x3 x6 (ix2 r c)
      = Cert.Combine.rowDot (val_main_v71 (F := Ideal) x0 x1 x2 x3) (fun c k => x6 (ix3 (2 : Fin 3) c k)) r c := by
  rw [val_main_v75_apply]
  unfold Cert.Combine.rowDot
  refine Finset.sum_congr rfl fun k _ => ?_
  rw [lidx75, ridx75, wrel2_read]

/-! ## The reference's result is the specification -/

/-- The reference's result, as a function of its arguments and of its three scatter-add results, is `Cert.Combine.out`. -/
theorem ref_eq (x0 : (⟨S100000x128, .f32⟩ : BufTy).Contents (Elt Ideal)) (x1 x2 : (⟨S3x600000, .i32⟩ : BufTy).Contents (Elt Ideal))
    (x3 : (⟨S3x600000, .f32⟩ : BufTy).Contents (Elt Ideal)) (x4 : (⟨S128x128, .f32⟩ : BufTy).Contents (Elt Ideal))
    (x5 : (⟨S128, .f32⟩ : BufTy).Contents (Elt Ideal)) (x6 : (⟨S3x128x128, .f32⟩ : BufTy).Contents (Elt Ideal)) :
    val_main_v76 (F := Ideal) x0 x1 x2 x3 x4 x5 x6
      = Cert.Combine.out x0 (val_main_v23 (F := Ideal) x0 x1 x2 x3) (val_main_v47 (F := Ideal) x0 x1 x2 x3)
          (val_main_v71 (F := Ideal) x0 x1 x2 x3) x4 x5 x6 := by
  funext i
  obtain ⟨r, c, rfl⟩ : ∃ (r : Fin 100000) (c : Fin 128), i = ix2 r c := ⟨i 0, i 1, eq_ix2 i⟩
  rw [Cert.Combine.out_ix2, val_main_v76_apply, val_main_v52_apply, val_main_v28_apply, val_main_v4_apply,
    self_dot, rel0_dot, rel1_dot, rel2_dot, bias_read]
  rfl

end Cert.ReferenceIdeal.RefCombine

end
-- ==== Proof.Aggregates.lean ====
/-
  The three aggregates are the same arrays in both programs.

  Each program computes, per relation, the same chain of host operations on the same arguments: the relation's row
  of the edge values made a column, the relation's row of the source indices wrapped into range and made a column of
  start indices, the rows of the node features gathered at them, each scaled by its edge value, and the scaled rows
  scatter-added into a zero matrix at the relation's row of the destination indices.  The chains are equal
  operation by operation, so the arrays are equal without opening the gather or the scatter-add.
-/
import proofs.«118483_j63582695850894_1_alg».proof.Proof.KernelIdealHost
import Idealize.ShloMosaic.Lib.StableHlo.Run
import proofs.«118483_j63582695850894_1_alg».proof.Proof.Gen.ReferenceIdeal.Read

set_option maxRecDepth 16384

noncomputable section

namespace Cert.Proof.Aggregates

open Cert.KernelIdeal Cert.KernelIdeal.Gen Cert.KernelIdeal.Frm
open Idealize.ShloMosaic Idealize.ShloMosaic.TcCoe Idealize.SL.Sem Idealize.ShloMosaic.StableHlo

variable (m : (ℓ : Loc nD τ sig) → Buf (Elt Ideal) ℓ)

set_option maxHeartbeats 16000000 in
/-- Relation 0's aggregate. -/
theorem agg0 (c : Dev nD) : (V m c main_v18 : S100000x128.Idx → EReal)
    = Cert.ReferenceIdeal.Read.val_main_v23 (F := Ideal) (m ((c.tc : Thread nD τ).loc main_arg0)) (m ((c.tc : Thread nD τ).loc main_arg1))
        (m ((c.tc : Thread nD τ).loc main_arg2)) (m ((c.tc : Thread nD τ).loc main_arg3)) := by
  show StableHlo.after hostOps0 (fun b => m (c, b)) (Proc.devRef .tc main_v18) = _
  after_results
  rfl

set_option maxHeartbeats 16000000 in
/-- Relation 1's aggregate. -/
theorem agg1 (c : Dev nD) : (V m c main_v37 : S100000x128.Idx → EReal)
    = Cert.ReferenceIdeal.Read.val_main_v47 (F := Ideal) (m ((c.tc : Thread nD τ).loc main_arg0)) (m ((c.tc : Thread nD τ).loc main_arg1))
        (m ((c.tc : Thread nD τ).loc main_arg2)) (m ((c.tc : Thread nD τ).loc main_arg3)) := by
  show StableHlo.after hostOps0 (fun b => m (c, b)) (Proc.devRef .tc main_v37) = _
  after_results
  rfl

set_option maxHeartbeats 16000000 in
/-- Relation 2's aggregate. -/
theorem agg2 (c : Dev nD) : (V m c main_v56 : S100000x128.Idx → EReal)
    = Cert.ReferenceIdeal.Read.val_main_v71 (F := Ideal) (m ((c.tc : Thread nD τ).loc main_arg0)) (m ((c.tc : Thread nD τ).loc main_arg1))
        (m ((c.tc : Thread nD τ).loc main_arg2)) (m ((c.tc : Thread nD τ).loc main_arg3)) := by
  show StableHlo.after hostOps0 (fun b => m (c, b)) (Proc.devRef .tc main_v56) = _
  after_results
  rfl

end Cert.Proof.Aggregates

end
-- ==== Proof.lean ====
/-
  The certificate of the relation aggregator: a tiled kernel computing
      out = x · W_selfᵀ + b + Σ_r agg_r · W_rels[r]ᵀ            (r = 0, 1, 2)
  from aggregates agg_r = segment-sum over destinations of vals[r] · x[src[r]] formed on the host, against the plain
  reference that adds the same four products in the same order.

  * The three frames.  The kernel's program is seventy-three host operations and one region of twenty grid points; at
    each point the body loads five input blocks and stores one covering tile, so the run exists, nothing faults and no
    argument is written (once at the word level, once on the extended reals: the same proof at both readings of the
    floats).  The reference is host operations only.
  * The idealization rewrote nothing, so it preserves the kernel trivially.
  * On the extended reals the kernel's result array is ONE function (`Cert.Combine.out`) of the node features, the three
    aggregates, the self weight, the bias and the relation weights; the reference's result is the same function of the same
    arrays; and the aggregates are the same arrays in both programs, being the same host operations of the same
    arguments.  No law of the extended reals is used beyond reading each product at an entry, so the finiteness of the
    inputs is never needed.
-/
import proofs.«118483_j63582695850894_1_alg».proof.Defs
import proofs.«118483_j63582695850894_1_alg».proof.Proof.Gen.Kernel
import proofs.«118483_j63582695850894_1_alg».proof.Proof.Gen.KernelIdeal
import proofs.«118483_j63582695850894_1_alg».proof.Proof.Gen.ReferenceIdeal
import proofs.«118483_j63582695850894_1_alg».proof.Proof.Gen.Pre_finite_inputs
import proofs.«118483_j63582695850894_1_alg».proof.Proof.Gen.ReferenceIdeal.Run
import proofs.«118483_j63582695850894_1_alg».proof.Proof.Gen.ReferenceIdeal.Read
import proofs.«118483_j63582695850894_1_alg».proof.Proof.KernelBody
import proofs.«118483_j63582695850894_1_alg».proof.Proof.KernelIdealFinal
import proofs.«118483_j63582695850894_1_alg».proof.Proof.RefCombine
import proofs.«118483_j63582695850894_1_alg».proof.Proof.Aggregates
import Idealize.ShloMosaic.Adequacy
import Idealize.ShloMosaic.Init

noncomputable section

namespace Cert.Proof

open Idealize.ShloMosaic Idealize.SL.Sem

/-- The word-level kernel runs and leaves its arguments. -/
theorem frame_kernel : Cert.frame_Kernel := fun m ρ _ => Cert.Kernel.Frm.frame m ρ

/-- So does its reading on the extended reals. -/
theorem frame_kernelIdeal : Cert.frame_KernelIdeal := fun m ρ _ => Cert.KernelIdeal.Frm.frame m ρ

/-- The reference runs and leaves its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- From memories agreeing on the arguments both programs end with the same result array: the kernel's is
    `Cert.Combine.out` of its arguments and aggregates, the reference's the same function of its own, the aggregates are
    the reference's three scatter-add results at the kernel's arguments, and the arguments agree. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v76_eq, Cert.ReferenceIdeal.RefCombine.ref_eq,
    Cert.Proof.Aggregates.agg0, Cert.Proof.Aggregates.agg1, Cert.Proof.Aggregates.agg2,
    (hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
